-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x512 : Shape := ⟨2, ![1024, 512]⟩
abbrev S1024 : Shape := ⟨1, ![1024]⟩
abbrev S2048x1024 : Shape := ⟨2, ![2048, 1024]⟩
abbrev S2048 : Shape := ⟨1, ![2048]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S32768x512 .f32) (main_arg1 : FVec F S1024x512 .f32) (main_arg2 : FVec F S1024 .f32) (main_arg3 : FVec F S2048x1024 .f32) (main_arg4 : FVec F S2048 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Kernel.lean ====
abbrev S32768x512 : Shape := ⟨2, ![32768, 512]⟩
abbrev S1024x512 : Shape := ⟨2, ![1024, 512]⟩
abbrev S1024 : Shape := ⟨1, ![1024]⟩
abbrev S2048x1024 : Shape := ⟨2, ![2048, 1024]⟩
abbrev S2048 : Shape := ⟨1, ![2048]⟩
abbrev S1x1024 : Shape := ⟨2, ![1, 1024]⟩
abbrev S1x2048 : Shape := ⟨2, ![1, 2048]⟩
abbrev S32768 : Shape := ⟨1, ![32768]⟩
abbrev S2048x512 : Shape := ⟨2, ![2048, 512]⟩
abbrev S2048x1 : Shape := ⟨2, ![2048, 1]⟩
abbrev S512x1024 : Shape := ⟨2, ![512, 1024]⟩
abbrev S1x512 : Shape := ⟨2, ![1, 512]⟩

abbrev nBuf : Space → Nat
  | .hbm => 10
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S1024x512, .f32⟩
  | .hbm, ⟨2, _⟩ => ⟨S1024, .f32⟩
  | .hbm, ⟨3, _⟩ => ⟨S2048x1024, .f32⟩
  | .hbm, ⟨4, _⟩ => ⟨S2048, .f32⟩
  | .hbm, ⟨5, _⟩ => ⟨S1024x512, .bf16⟩
  | .hbm, ⟨6, _⟩ => ⟨S2048x1024, .bf16⟩
  | .hbm, ⟨7, _⟩ => ⟨S1x1024, .f32⟩
  | .hbm, ⟨8, _⟩ => ⟨S1x2048, .f32⟩
  | .hbm, ⟨9, _⟩ => ⟨S32768, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1x1024, .f32⟩
  | .local _ .vmem, ⟨4, _⟩ => ⟨S2048x1024, .bf16⟩
  | .local _ .vmem, ⟨5, _⟩ => ⟨S1x2048, .f32⟩
  | .local _ .vmem, ⟨6, _⟩ => ⟨S2048, .f32⟩
  | .local _ .vmem, ⟨7, _⟩ => ⟨S2048, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S1024_S1x1024 : S1024.ShapeCasts S1x1024
  shapeCasts_S2048_S1x2048 : S2048.ShapeCasts S1x2048
  inb_S2048x512_S2048x512_0_0 : ∀ a, (![0, 0] : Fin 2 → Nat) a + S2048x512.size a ≤ S2048x512.size a
  h_S2048x512 : 0 < S2048x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S512x1024_0_0 : ∀ a, (![0, 0] : Fin 2 → Nat) a + S512x1024.size a ≤ S2048x1024.size a
  h_S512x1024 : 0 < S512x1024.numel
  shapeCasts_S512x1024_S512x1024 : S512x1024.ShapeCasts S512x1024
  inb_S1x2048_S1x512_0_0 : ∀ a, (![0, 0] : Fin 2 → Nat) a + S1x512.size a ≤ S1x2048.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  inb_S2048x1024_S512x1024_512_0 : ∀ a, (![512, 0] : Fin 2 → Nat) a + S512x1024.size a ≤ S2048x1024.size a
  inb_S1x2048_S1x512_0_512 : ∀ a, (![0, 512] : Fin 2 → Nat) a + S1x512.size a ≤ S1x2048.size a
  inb_S2048x1024_S512x1024_1024_0 : ∀ a, (![1024, 0] : Fin 2 → Nat) a + S512x1024.size a ≤ S2048x1024.size a
  inb_S1x2048_S1x512_0_1024 : ∀ a, (![0, 1024] : Fin 2 → Nat) a + S1x512.size a ≤ S1x2048.size a
  inb_S2048x1024_S512x1024_1536_0 : ∀ a, (![1536, 0] : Fin 2 → Nat) a + S512x1024.size a ≤ S2048x1024.size a
  inb_S1x2048_S1x512_0_1536 : ∀ a, (![0, 1536] : Fin 2 → Nat) a + S1x512.size a ≤ S1x2048.size a
  shapeCasts_S2048x1_S2048 : S2048x1.ShapeCasts S2048
  inb_S2048_S2048_0 : ∀ a, (![0] : Fin 1 → Nat) a + S2048.size a ≤ S2048.size a
  h_S2048 : 0 < S2048.numel
  dot_S2048x512_S1024x512_S2048x1024_1_1_0_0_n_n_wf : DotDims.WF S2048x512 S1024x512 S2048x1024 [1] [1] [0] [0] [] []
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S32768.size a
  hwx0_5 : ∀ i : grid0.Coords, EltTy.bits .f32 = 32 ∨ (Rect.block (s := S32768) S2048.size (cc0_transform_5 i) (hinb0_5 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x512 : Shape := ⟨2, ![1024, 512]⟩
abbrev S1024 : Shape := ⟨1, ![1024]⟩
abbrev S2048x1024 : Shape := ⟨2, ![2048, 1024]⟩
abbrev S2048 : Shape := ⟨1, ![2048]⟩
abbrev S32768x1024 : Shape := ⟨2, ![32768, 1024]⟩
abbrev S1x1024 : Shape := ⟨2, ![1, 1024]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩

abbrev nBuf : Space → Nat
  | .hbm => 15
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S1024x512, .f32⟩
  | .hbm, ⟨2, _⟩ => ⟨S1024, .f32⟩
  | .hbm, ⟨3, _⟩ => ⟨S2048x1024, .f32⟩
  | .hbm, ⟨4, _⟩ => ⟨S2048, .f32⟩
  | .hbm, ⟨5, _⟩ => ⟨S32768x1024, .f32⟩
  | .hbm, ⟨6, _⟩ => ⟨S1x1024, .f32⟩
  | .hbm, ⟨7, _⟩ => ⟨S32768x1024, .f32⟩
  | .hbm, ⟨8, _⟩ => ⟨S32768x1024, .f32⟩
  | .hbm, ⟨9, _⟩ => ⟨S32768x2048, .f32⟩
  | .hbm, ⟨10, _⟩ => ⟨S1x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  reducesTo_S32768x2048_S32768_d1 : S32768x2048.ReducesTo [1] S32768
  h_S_ : 0 < S_.numel
  dot_S32768x512_S1024x512_S32768x1024_1_1_0_0_n_n_wf : DotDims.WF S32768x512 S1024x512 S32768x1024 [1] [1] [0] [0] [] []
  dot_S32768x1024_S2048x1024_S32768x2048_1_1_0_0_n_n_wf : DotDims.WF S32768x1024 S2048x1024 S32768x2048 [1] [1] [0] [0] [] []

variable [Facts₀]

def dot_S32768x512_S1024x512_S32768x1024_1_1_0_0_n_n : DotDims S32768x512 S1024x512 S32768x1024 where
  lhsContracting := [1]
  rhsContracting := [1]
  lhsNonContracting := [0]
  rhsNonContracting := [0]
  lhsBatch := []
  rhsBatch := []
  wf := dot_S32768x512_S1024x512_S32768x1024_1_1_0_0_n_n_wf
def dot_S32768x1024_S2048x1024_S32768x2048_1_1_0_0_n_n : DotDims S32768x1024 S2048x1024 S32768x2048 where
  lhsContracting := [1]
  rhsContracting := [1]
  lhsNonContracting := [0]
  rhsNonContracting := [0]
  lhsBatch := []
  rhsBatch := []
  wf := dot_S32768x1024_S2048x1024_S32768x2048_1_1_0_0_n_n_wf

class Facts : Prop extends Facts₀ where

variable [Facts]
-- ==== Proof.MaxChunks.lean ====
/-
  Maxima over a row of 2048 scores taken in four chunks of 512.

  On the extended reals the float word 0xFF800000 is −∞, the least element, so a fold of `max` that starts from it is the
  supremum of the folded values; and the supremum over the 2048 positions of a row is the join of the suprema over its four
  consecutive chunks of 512 positions, in whatever way the join is bracketed.
-/
import Idealize.ShloMosaic.PureOps.Ideal

noncomputable section

namespace Cert.RowMax

open Idealize.ShloMosaic

/-- The f32 word `0xFF800000` is −∞: the least extended real. -/
theorem negInf_eq_bot : Ideal.ofBits .f32 0xFF800000#32 = (⊥ : EReal) := by
  simp [Ideal.ofBits, Ideal.ieee]

/-- A fold of `max` from the least element is the supremum. -/
theorem fold_max_bot {ι : Type} (s : Finset ι) (f : ι → EReal) : s.fold max ⊥ f = s.sup f := rfl

/-- Position `o` of chunk `c` among the 2048 positions of a row. -/
def chunk (c : Fin 4) (o : Fin 512) : Fin 2048 := ⟨512 * c.val + o.val, by have := c.isLt; have := o.isLt; omega⟩

theorem chunk_val (c : Fin 4) (o : Fin 512) : (chunk c o).val = 512 * c.val + o.val := rfl

/-- The supremum over a row is the join, taken chunk after chunk from the least element, of the four chunks' suprema. -/
theorem sup_chunks (f : Fin 2048 → EReal) :
    (Finset.univ : Finset (Fin 2048)).sup f
      = max (max (max (max ⊥ ((Finset.univ : Finset (Fin 512)).sup fun o => f (chunk 0 o)))
          ((Finset.univ : Finset (Fin 512)).sup fun o => f (chunk 1 o)))
          ((Finset.univ : Finset (Fin 512)).sup fun o => f (chunk 2 o)))
          ((Finset.univ : Finset (Fin 512)).sup fun o => f (chunk 3 o)) := by
  apply le_antisymm
  · refine Finset.sup_le fun o _ => ?_
    have ho : o.val < 2048 := o.isLt
    have hc : ∀ (c : Fin 4) (o' : Fin 512), f (chunk c o') ≤ (Finset.univ : Finset (Fin 512)).sup fun o => f (chunk c o) :=
      fun c o' => Finset.le_sup (f := fun o => f (chunk c o)) (Finset.mem_univ o')
    by_cases h0 : o.val < 512
    · have e : o = chunk 0 ⟨o.val, h0⟩ := Fin.ext (by rw [chunk_val]; show o.val = 512 * 0 + o.val; omega)
      rw [e]
      exact le_max_of_le_left (le_max_of_le_left (le_max_of_le_left (le_max_of_le_right (hc 0 _))))
    by_cases h1 : o.val < 1024
    · have e : o = chunk 1 ⟨o.val - 512, by omega⟩ := Fin.ext (by rw [chunk_val]; show o.val = 512 * 1 + (o.val - 512); omega)
      rw [e]
      exact le_max_of_le_left (le_max_of_le_left (le_max_of_le_right (hc 1 _)))
    by_cases h2 : o.val < 1536
    · have e : o = chunk 2 ⟨o.val - 1024, by omega⟩ := Fin.ext (by rw [chunk_val]; show o.val = 512 * 2 + (o.val - 1024); omega)
      rw [e]
      exact le_max_of_le_left (le_max_of_le_right (hc 2 _))
    · have e : o = chunk 3 ⟨o.val - 1536, by omega⟩ := Fin.ext (by rw [chunk_val]; show o.val = 512 * 3 + (o.val - 1536); omega)
      rw [e]
      exact le_max_of_le_right (hc 3 _)
  · have hs : ∀ c : Fin 4, ((Finset.univ : Finset (Fin 512)).sup fun o => f (chunk c o)) ≤ (Finset.univ : Finset (Fin 2048)).sup f :=
      fun c => Finset.sup_le fun o _ => Finset.le_sup (Finset.mem_univ (chunk c o))
    exact max_le (max_le (max_le (max_le bot_le (hs 0)) (hs 1)) (hs 2)) (hs 3)

end Cert.RowMax

end
-- ==== Proof.Spec.lean ====
/-
  The function both programs compute, for one row of the input.

  A row `x` of 512 inputs goes through a first linear layer to 1024 hidden values, `h j = Σ_k x k · W1 j k + B1 j`, then
  through a second one to 2048 scores, `s o = Σ_j h j · W2 o j + B2 o`, and the result is the largest score, the
  supremum over `o`. Everything is read on the extended reals, where sums, products and suprema are exact.
-/
import Idealize.ShloMosaic.PureOps.Ideal
import Idealize.ShloMosaic.Lib.ValueIdx

noncomputable section

namespace Cert.RowMax

/-- Hidden value `j` of a row: the row against row `j` of the first weight matrix, plus the first bias. -/
def hiddenAt (x : Fin 512 → EReal) (W1 : Fin 1024 → Fin 512 → EReal) (B1 : Fin 1024 → EReal) (j : Fin 1024) : EReal :=
  (∑ k : Fin 512, x k * W1 j k) + B1 j

/-- Score `o` of a row: its hidden values against row `o` of the second weight matrix, plus the second bias. -/
def scoreAt (x : Fin 512 → EReal) (W1 : Fin 1024 → Fin 512 → EReal) (B1 : Fin 1024 → EReal)
    (W2 : Fin 2048 → Fin 1024 → EReal) (B2 : Fin 2048 → EReal) (o : Fin 2048) : EReal :=
  (∑ j : Fin 1024, hiddenAt x W1 B1 j * W2 o j) + B2 o

/-- The row's result: its largest score. -/
def rowMax (x : Fin 512 → EReal) (W1 : Fin 1024 → Fin 512 → EReal) (B1 : Fin 1024 → EReal)
    (W2 : Fin 2048 → Fin 1024 → EReal) (B2 : Fin 2048 → EReal) : EReal :=
  (Finset.univ : Finset (Fin 2048)).sup (scoreAt x W1 B1 W2 B2)

open Idealize.ShloMosaic Idealize.ShloMosaic.ValueIdx

/-- The result for row `r` of the argument arrays: the input `A0` [32768, 512], the first layer's weights `A1` [1024, 512]
    and bias `A2` [1024], the second layer's weights `A3` [2048, 1024] and bias `A4` [2048]. -/
def resultRow (A0 : (⟨2, ![32768, 512]⟩ : Shape).Idx → EReal) (A1 : (⟨2, ![1024, 512]⟩ : Shape).Idx → EReal)
    (A2 : (⟨1, ![1024]⟩ : Shape).Idx → EReal) (A3 : (⟨2, ![2048, 1024]⟩ : Shape).Idx → EReal)
    (A4 : (⟨1, ![2048]⟩ : Shape).Idx → EReal) (r : Fin 32768) : EReal :=
  rowMax (fun k => A0 (ix2 r k)) (fun j k => A1 (ix2 j k)) (fun j => A2 (ix1 j)) (fun o j => A3 (ix2 o j)) (fun o => A4 (ix1 o))

/-- The result array [32768]: entry `r` is the largest score of row `r`. -/
def result (A0 : (⟨2, ![32768, 512]⟩ : Shape).Idx → EReal) (A1 : (⟨2, ![1024, 512]⟩ : Shape).Idx → EReal)
    (A2 : (⟨1, ![1024]⟩ : Shape).Idx → EReal) (A3 : (⟨2, ![2048, 1024]⟩ : Shape).Idx → EReal)
    (A4 : (⟨1, ![2048]⟩ : Shape).Idx → EReal) : (⟨1, ![32768]⟩ : Shape).Idx → EReal :=
  fun i => resultRow A0 A1 A2 A3 A4 (i 0)

end Cert.RowMax

end
-- ==== Proof.KernelRow.lean ====
/-
  What the kernel's body computes for one row of its block.

  The body multiplies the block of 2048 rows by the first weight matrix (a matrix product into a zero accumulator: the plain
  sum of products), adds the first bias, and then, for each of four chunks of 512 rows of the second weight matrix,
  multiplies, adds that chunk of the second bias and takes the maximum along the chunk, folding the four maxima into a running
  maximum that starts at −∞. Read at row `p`, every step is the corresponding step of `Cert.RowMax`.
-/
import proofs.«163617_j58918361366879_2_alg».proof.Proof.Gen.KernelIdeal.Skeleton
import proofs.«163617_j58918361366879_2_alg».proof.Proof.MaxChunks
import proofs.«163617_j58918361366879_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.RowMax

/-- The first product's dimension numbers: [2048, 512] against [1024, 512], contracting the last axis of both. -/
abbrev D1 := dot_S2048x512_S1024x512_S2048x1024_1_1_0_0_n_n
/-- The second product's: [2048, 1024] against a chunk [512, 1024], contracting the last axis of both. -/
abbrev D2 := dot_S2048x1024_S512x1024_S2048x512_1_1_0_0_n_n

/-! ## The operand indices of the two products: the output's row, the other operand's row, the contraction coordinate -/

theorem lhs1_0 (i : S2048x1024.Idx) (q : D1.contr.Idx) : (D1.lhsIdx i q 0).val = (i 0).val := by
  unfold DotDims.lhsIdx
  rw [dif_neg (show ¬(0 : Fin S2048x512.rank) ∈ D1.lhsBatch by decide), dif_pos (show (0 : Fin S2048x512.rank) ∈ D1.lhsNonContracting by decide)]
  rfl
theorem lhs1_1 (i : S2048x1024.Idx) (q : D1.contr.Idx) : (D1.lhsIdx i q 1).val = (q ⟨0, by decide⟩).val :=
  D1.lhsIdx_val_of_single rfl i q
theorem rhs1_0 (i : S2048x1024.Idx) (q : D1.contr.Idx) : (D1.rhsIdx i q 0).val = (i 1).val := by
  unfold DotDims.rhsIdx
  rw [dif_neg (show ¬(0 : Fin S1024x512.rank) ∈ D1.rhsBatch by decide), dif_pos (show (0 : Fin S1024x512.rank) ∈ D1.rhsNonContracting by decide)]
  rfl
theorem rhs1_1 (i : S2048x1024.Idx) (q : D1.contr.Idx) : (D1.rhsIdx i q 1).val = (q ⟨0, by decide⟩).val :=
  D1.rhsIdx_val_of_single rfl i q

theorem lhs2_0 (i : S2048x512.Idx) (q : D2.contr.Idx) : (D2.lhsIdx i q 0).val = (i 0).val := by
  unfold DotDims.lhsIdx
  rw [dif_neg (show ¬(0 : Fin S2048x1024.rank) ∈ D2.lhsBatch by decide), dif_pos (show (0 : Fin S2048x1024.rank) ∈ D2.lhsNonContracting by decide)]
  rfl
theorem lhs2_1 (i : S2048x512.Idx) (q : D2.contr.Idx) : (D2.lhsIdx i q 1).val = (q ⟨0, by decide⟩).val :=
  D2.lhsIdx_val_of_single rfl i q
theorem rhs2_0 (i : S2048x512.Idx) (q : D2.contr.Idx) : (D2.rhsIdx i q 0).val = (i 1).val := by
  unfold DotDims.rhsIdx
  rw [dif_neg (show ¬(0 : Fin S512x1024.rank) ∈ D2.rhsBatch by decide), dif_pos (show (0 : Fin S512x1024.rank) ∈ D2.rhsNonContracting by decide)]
  rfl
theorem rhs2_1 (i : S2048x512.Idx) (q : D2.contr.Idx) : (D2.rhsIdx i q 1).val = (q ⟨0, by decide⟩).val :=
  D2.rhsIdx_val_of_single rfl i q

/-! ## The two products at an index -/

/-- The first matrix product into a zero accumulator, at (p, j): the sum over the 512 inputs. -/
theorem mm1_apply (a : FVec Ideal S2048x512 .bf16) (b : FVec Ideal S1024x512 .bf16) (p : Fin 2048) (j : Fin 1024) :
    matmul D1 none a b (constant S2048x1024 .f32 0x00000000#32) (ix2 p j) = ∑ k : Fin 512, a (ix2 p k) * b (ix2 j k) := by
  simp only [matmul]
  rw [Ideal.matmul_constant_zero_apply, ← Equiv.sum_comp (contrEquiv1 D1 512 rfl rfl).symm]
  refine Finset.sum_congr rfl fun k _ => ?_
  have hk := contrEquiv1_symm_val D1 512 rfl rfl k
  have el : D1.lhsIdx (ix2 p j) ((contrEquiv1 D1 512 rfl rfl).symm k) = ix2 p k := funext fun ax => Fin.ext (by
    match ax with
    | ⟨0, _⟩ => exact lhs1_0 _ _
    | ⟨1, _⟩ => exact (lhs1_1 _ _).trans hk)
  have er : D1.rhsIdx (ix2 p j) ((contrEquiv1 D1 512 rfl rfl).symm k) = ix2 j k := funext fun ax => Fin.ext (by
    match ax with
    | ⟨0, _⟩ => exact rhs1_0 _ _
    | ⟨1, _⟩ => exact (rhs1_1 _ _).trans hk)
  rw [el, er]

/-- The second matrix product into a zero accumulator, at (p, o): the sum over the 1024 hidden values. -/
theorem mm2_apply (a : FVec Ideal S2048x1024 .bf16) (b : FVec Ideal S512x1024 .bf16) (p : Fin 2048) (o : Fin 512) :
    matmul D2 none a b (constant S2048x512 .f32 0x00000000#32) (ix2 p o) = ∑ j : Fin 1024, a (ix2 p j) * b (ix2 o j) := by
  simp only [matmul]
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix2 p o) ((contrEquiv1 D2 1024 rfl rfl).symm k) = ix2 p k := funext fun ax => Fin.ext (by
    match ax with
    | ⟨0, _⟩ => exact lhs2_0 _ _
    | ⟨1, _⟩ => exact (lhs2_1 _ _).trans hk)
  have er : D2.rhsIdx (ix2 p o) ((contrEquiv1 D2 1024 rfl rfl).symm k) = ix2 o k := funext fun ax => Fin.ext (by
    match ax with
    | ⟨0, _⟩ => exact rhs2_0 _ _
    | ⟨1, _⟩ => exact (rhs2_1 _ _).trans hk)
  rw [el, er]

/-! ## The hidden block -/

/-- The hidden block at (p, j) is hidden value `j` of row `p` of the input block. -/
theorem hid_apply (v0 : Vec Ideal S2048x512 .f32) (v2 : Vec Ideal S1024x512 .bf16) (v5 : Vec Ideal S1x1024 .f32)
    (p : Fin 2048) (j : Fin 1024) :
    k0_pay2 v0 v2 v5 (ix2 p j)
      = hiddenAt (fun k => v0 (ix2 p k)) (fun j k => v2 (ix2 j k)) (fun j => v5 (ix2 (0 : Fin 1) j)) j := by
  unfold k0_pay2 hiddenAt
  show matmul (F := Ideal) D1 none (truncf (F := Ideal) .bf16 v0 bitsLt_bf16_f32) (shapeCast S1024x512 v2 shapeCasts_S1024x512_S1024x512)
        (constant (F := Ideal) S2048x1024 .f32 0x00000000#32) (ix2 p j)
      + broadcastTo S2048x1024 (shapeCast S1x1024 v5 shapeCasts_S1x1024_S1x1024) broadcasts_S1x1024_S2048x1024 (ix2 p j) = _
  rw [mm1_apply, broadcastTo_1b_ab_apply, shapeCast_self, shapeCast_self]
  rfl

/-! ## One chunk's maximum -/

/-- A row index `p` of the reduced shape with the coordinate `o` put back on the reduced axis is (p, o). -/
theorem lift_row (h : S2048x512.Reduces [1] S2048) (p : Fin 2048) (o : Fin 512) : h.lift (ix1 p) o = ix2 p o :=
  funext fun c => Fin.ext (by match c with | ⟨0, _⟩ => rfl | ⟨1, _⟩ => rfl)

/-- A vector of 2048 entries cast to one column, read at (p, 0), is entry `p`. -/
theorem column_apply (z : FVec Ideal S2048 .f32) (p : Fin 2048) :
    shapeCast S2048x1 z shapeCasts_S2048_S2048x1 (ix2 p (0 : Fin 1)) = z (ix1 p) :=
  shapeCast_apply z _ (ix2 p (0 : Fin 1)) (ix1 p) (by
    rw [Shape.rowMajor_val_one, Shape.rowMajor_val_two]; show p.val = p.val * 1 + 0; omega)

/-- One chunk's scores: the hidden block against a chunk `w` of 512 rows of the second weight matrix, plus the chunk `b` of
    the second bias, at (p, o). -/
theorem chunkScores_apply (h9 : FVec Ideal S2048x1024 .bf16) (w : FVec Ideal S512x1024 .bf16) (b : FVec Ideal S1x512 .f32)
    (p : Fin 2048) (o : Fin 512) :
    addf (F := Ideal) (matmul (F := Ideal) D2 none h9 (shapeCast S512x1024 w shapeCasts_S512x1024_S512x1024)
          (constant (F := Ideal) S2048x512 .f32 0x00000000#32))
        (broadcastTo S2048x512 (shapeCast S1x512 b shapeCasts_S1x512_S1x512) broadcasts_S1x512_S2048x512) (ix2 p o)
      = (∑ j : Fin 1024, h9 (ix2 p j) * w (ix2 o j)) + b (ix2 (0 : Fin 1) o) := by
  show matmul (F := Ideal) D2 none h9 (shapeCast S512x1024 w shapeCasts_S512x1024_S512x1024)
        (constant (F := Ideal) S2048x512 .f32 0x00000000#32) (ix2 p o)
      + broadcastTo S2048x512 (shapeCast S1x512 b shapeCasts_S1x512_S1x512) broadcasts_S1x512_S2048x512 (ix2 p o) = _
  rw [mm2_apply, broadcastTo_1b_ab_apply, shapeCast_self, shapeCast_self]

/-- One chunk's step: those scores maximised along the chunk from −∞ and cast to a column: at row `p`, the supremum of the
    chunk's 512 scores. -/
theorem chunkMax_apply (h9 : FVec Ideal S2048x1024 .bf16) (w : FVec Ideal S512x1024 .bf16) (b : FVec Ideal S1x512 .f32)
    (hφ : FKind.Formats .f32) (hacc : (0xFF800000#32 : BitVec 32) = FKind.maximumf.neutral .f32 hφ) (p : Fin 2048) :
    shapeCast S2048x1 (multiReduction (F := Ideal) .maximumf [1] S2048
        (addf (F := Ideal) (matmul (F := Ideal) D2 none h9 (shapeCast S512x1024 w shapeCasts_S512x1024_S512x1024)
            (constant (F := Ideal) S2048x512 .f32 0x00000000#32))
          (broadcastTo S2048x512 (shapeCast S1x512 b shapeCasts_S1x512_S1x512) broadcasts_S1x512_S2048x512))
        0xFF800000#32 reduces_S2048x512_S2048 hφ hacc) shapeCasts_S2048_S2048x1 (ix2 p (0 : Fin 1))
      = (Finset.univ : Finset (Fin 512)).sup fun o => (∑ j : Fin 1024, h9 (ix2 p j) * w (ix2 o j)) + b (ix2 (0 : Fin 1) o) := by
  refine (column_apply _ p).trans ?_
  refine (Ideal.multiReduction_maximumf_single _ _ reduces_S2048x512_S2048 hφ hacc (ix1 p)).trans ?_
  rw [Ideal.ofBits_def, negInf_eq_bot]
  show (Finset.univ : Finset (Fin 512)).sup _ = _
  refine Finset.sup_congr rfl fun o _ => ?_
  exact (congrArg _ (lift_row reduces_S2048x512_S2048 p o)).trans (chunkScores_apply h9 w b p o)

/-! ## The stored vector -/

/-- A column of 2048 entries cast back to a vector, read at `p`, is entry (p, 0). -/
theorem uncolumn_apply (z : FVec Ideal S2048x1 .f32) (p : Fin 2048) :
    shapeCast S2048 z shapeCasts_S2048x1_S2048 (ix1 p) = z (ix2 p (0 : Fin 1)) :=
  shapeCast_apply z _ (ix1 p) (ix2 p (0 : Fin 1)) (by
    rw [Shape.rowMajor_val_one, Shape.rowMajor_val_two]; show p.val * 1 + 0 = p.val; omega)

end Cert.KernelIdeal.Row

end
-- ==== Proof.KernelStore.lean ====
/-
  What the kernel's body stores, for one row of its block: the running maximum, from −∞, of the four chunks' suprema.
-/
import proofs.«163617_j58918361366879_2_alg».proof.Proof.KernelRow

noncomputable section

namespace Cert.KernelIdeal.Row

open Cert.KernelIdeal Cert.KernelIdeal.Gen Idealize.ShloMosaic Idealize.ShloMosaic.ValueIdx Cert.RowMax

/-- The running maximum of a start column and four more, cast back to a vector: at row `p`, the maximum of the five entries
    of that row, bracketed as the body takes it. -/
theorem running_apply (m0 c0 c1 c2 c3 : FVec Ideal S2048x1 .f32) (p : Fin 2048) :
    shapeCast S2048 (maximumf (F := Ideal) (maximumf (F := Ideal) (maximumf (F := Ideal) (maximumf (F := Ideal) m0 c0) c1) c2) c3)
        shapeCasts_S2048x1_S2048 (ix1 p)
      = max (max (max (max (m0 (ix2 p (0 : Fin 1))) (c0 (ix2 p (0 : Fin 1)))) (c1 (ix2 p (0 : Fin 1)))) (c2 (ix2 p (0 : Fin 1))))
          (c3 (ix2 p (0 : Fin 1))) :=
  uncolumn_apply _ p

/-- The start column is −∞ everywhere. -/
theorem start_apply (p : Fin 2048) :
    broadcast S2048x1 (Scalar.ofBits (F := Ideal) .f32 0xFF800000#32) (ix2 p (0 : Fin 1)) = (⊥ : EReal) :=
  negInf_eq_bot

/-- What the body stores, at row `p`: the running maximum, from −∞, of the four chunks' suprema of scores — the scores of the
    hidden block against the four loaded chunks `w0 … w3` of the second weight matrix and `b0 … b3` of the second bias. -/
theorem stored_apply (x0 : Vec Ideal S2048x512 .f32) (x1 : Vec Ideal S1024x512 .bf16) (x2 : Vec Ideal S1x1024 .f32)
    (w0 w1 w2 w3 : FVec Ideal S512x1024 .bf16) (b0 b1 b2 b3 : FVec Ideal S1x512 .f32) (p : Fin 2048) :
    k0_pay1 (k0_pay2 x0 x1 x2) (k0_pay3 x0 x1 x2 w0 b0 w1 b1) (k0_pay4 w2) (k0_pay5 b2) w3 b3 (ix1 p)
      = max (max (max (max ⊥
          ((Finset.univ : Finset (Fin 512)).sup fun o => (∑ j : Fin 1024, k0_pay2 x0 x1 x2 (ix2 p j) * w0 (ix2 o j)) + b0 (ix2 (0 : Fin 1) o)))
          ((Finset.univ : Finset (Fin 512)).sup fun o => (∑ j : Fin 1024, k0_pay2 x0 x1 x2 (ix2 p j) * w1 (ix2 o j)) + b1 (ix2 (0 : Fin 1) o)))
          ((Finset.univ : Finset (Fin 512)).sup fun o => (∑ j : Fin 1024, k0_pay2 x0 x1 x2 (ix2 p j) * w2 (ix2 o j)) + b2 (ix2 (0 : Fin 1) o)))
          ((Finset.univ : Finset (Fin 512)).sup fun o => (∑ j : Fin 1024, k0_pay2 x0 x1 x2 (ix2 p j) * w3 (ix2 o j)) + b3 (ix2 (0 : Fin 1) o)) := by
  unfold k0_pay1 k0_pay3 k0_pay4 k0_pay5
  refine (running_apply _ _ _ _ _ p).trans ?_
  refine congrArg₂ max (congrArg₂ max (congrArg₂ max (congrArg₂ max ?_ ?_) ?_) ?_) ?_
  · exact start_apply p
  · exact chunkMax_apply _ w0 b0 _ _ p
  · exact chunkMax_apply _ w1 b1 _ _ p
  · exact chunkMax_apply _ w2 b2 _ _ p
  · exact chunkMax_apply _ w3 b3 _ _ p

end Cert.KernelIdeal.Row

end
-- ==== Proof.KernelBlock.lean ====
/-
  The kernel's output block, row by row.

  The body loads its input blocks whole, except the second weight matrix and the second bias, which it loads in four chunks:
  rows 512c … 512c + 511 of the matrix and the same columns of the bias, c = 0 … 3. Chunk `c`'s entry (o, j) is therefore
  entry (512c + o, j) of the whole matrix, and the four chunks' suprema joined are the supremum over all 2048 scores of the
  row: the output block at row `p` is `Cert.RowMax.rowMax` of row `p` of the input block.
-/
import proofs.«163617_j58918361366879_2_alg».proof.Proof.Gen.KernelIdeal.Frame
import proofs.«163617_j58918361366879_2_alg».proof.Proof.KernelStore

noncomputable section

namespace Cert.KernelIdeal.Row

open Cert.KernelIdeal Cert.KernelIdeal.Gen Idealize.ShloMosaic Idealize.ShloMosaic.ValueIdx Cert.RowMax

theorem zero_offset1 : (![0] : Fin 1 → Nat) = fun _ => 0 := funext fun a => by fin_cases a; rfl
theorem zero_offsets2 : (![0, 0] : Fin 2 → Nat) = fun _ => 0 := funext fun a => by fin_cases a <;> rfl

/-- Chunk `c` of the second weight matrix, loaded through the rectangle of its rows: entry (o, j) of the chunk is entry
    (512c + o, j) of the matrix. -/
theorem ld_rows (x3 : Vec Ideal S2048x1024 .bf16) (off : Nat)
    (inb : ∀ a, (![off, 0] : Fin 2 → Nat) a + S512x1024.size a ≤ S2048x1024.size a)
    (c : Fin 4) (hc : off = 512 * c.val) (o : Fin 512) (j : Fin 1024) :
    View.ld x3 (Rect.unit (s := S2048x1024) ![off, 0] S512x1024.size inb) (ix2 o j) = x3 (ix2 (chunk c o) j) := by
  show x3 ((Rect.unit (s := S2048x1024) ![off, 0] S512x1024.size inb).emb (ix2 o j)) = _
  refine congrArg x3 (funext fun a => Fin.ext ?_)
  match a with
  | ⟨0, _⟩ => show off + 1 * o.val = 512 * c.val + o.val; omega
  | ⟨1, _⟩ => show 0 + 1 * j.val = j.val; omega

/-- Chunk `c` of the second bias, loaded through the rectangle of its columns: entry (0, o) of the chunk is entry
    (0, 512c + o) of the bias row. -/
theorem ld_cols (x4 : Vec Ideal S1x2048 .f32) (off : Nat)
    (inb : ∀ a, (![0, off] : Fin 2 → Nat) a + S1x512.size a ≤ S1x2048.size a)
    (c : Fin 4) (hc : off = 512 * c.val) (o : Fin 512) :
    View.ld x4 (Rect.unit (s := S1x2048) ![0, off] S1x512.size inb) (ix2 (0 : Fin 1) o) = x4 (ix2 (0 : Fin 1) (chunk c o)) := by
  show x4 ((Rect.unit (s := S1x2048) ![0, off] S1x512.size inb).emb (ix2 (0 : Fin 1) o)) = _
  refine congrArg x4 (funext fun a => Fin.ext ?_)
  match a with
  | ⟨0, _⟩ => show 0 + 1 * 0 = 0; omega
  | ⟨1, _⟩ => show off + 1 * o.val = 512 * c.val + o.val; omega

/-- One chunk's supremum of scores, over the loaded chunk, is the supremum of the row's scores at that chunk's positions. -/
theorem chunk_sup (x0 : Vec Ideal S2048x512 .f32) (x1 : Vec Ideal S1024x512 .bf16) (x2 : Vec Ideal S1x1024 .f32)
    (x3 : Vec Ideal S2048x1024 .bf16) (x4 : Vec Ideal S1x2048 .f32) (p : Fin 2048) (c : Fin 4) (offw offb : Nat)
    (inbw : ∀ a, (![offw, 0] : Fin 2 → Nat) a + S512x1024.size a ≤ S2048x1024.size a)
    (inbb : ∀ a, (![0, offb] : Fin 2 → Nat) a + S1x512.size a ≤ S1x2048.size a)
    (hw : offw = 512 * c.val) (hb : offb = 512 * c.val) :
    ((Finset.univ : Finset (Fin 512)).sup fun o =>
        (∑ j : Fin 1024, k0_pay2 x0 x1 x2 (ix2 p j)
            * View.ld x3 (Rect.unit (s := S2048x1024) ![offw, 0] S512x1024.size inbw) (ix2 o j))
          + View.ld x4 (Rect.unit (s := S1x2048) ![0, offb] S1x512.size inbb) (ix2 (0 : Fin 1) o))
      = (Finset.univ : Finset (Fin 512)).sup fun o =>
          scoreAt (fun k => x0 (ix2 p k)) (fun j k => x1 (ix2 j k)) (fun j => x2 (ix2 (0 : Fin 1) j))
            (fun o j => x3 (ix2 o j)) (fun o => x4 (ix2 (0 : Fin 1) o)) (chunk c o) := by
  refine Finset.sup_congr rfl fun o _ => ?_
  unfold scoreAt
  refine congrArg₂ (· + ·) (Finset.sum_congr rfl fun j _ => ?_) (ld_cols x4 offb inbb c hb o)
  rw [hid_apply, ld_rows x3 offw inbw c hw o j]

/-- THE OUTPUT BLOCK at row `p`: the largest score of row `p` of the input block. -/
theorem out_row (x0 : Vec Ideal S2048x512 .f32) (x1 : Vec Ideal S1024x512 .bf16) (x2 : Vec Ideal S1x1024 .f32)
    (x3 : Vec Ideal S2048x1024 .bf16) (x4 : Vec Ideal S1x2048 .f32) (p : Fin 2048) :
    out0_5 x0 x1 x2 x3 x4 (ix1 p)
      = rowMax (fun k => x0 (ix2 p k)) (fun j k => x1 (ix2 j k)) (fun j => x2 (ix2 (0 : Fin 1) j))
          (fun o j => x3 (ix2 o j)) (fun o => x4 (ix2 (0 : Fin 1) o)) := by
  have e0 : View.ld x0 r0_0 = x0 := View.ld_unit_zero (S := S2048x512) zero_offsets2 _ x0
  have e1 : View.ld x1 r0_1 = x1 := View.ld_unit_zero (S := S1024x512) zero_offsets2 _ x1
  have e2 : View.ld x2 r0_2 = x2 := View.ld_unit_zero (S := S1x1024) zero_offsets2 _ x2
  unfold out0_5
  refine (congrFun (View.canon_unit_zero (S := S2048) zero_offset1 _ _) (ix1 p)).trans ?_
  rw [e0, e1, e2]
  refine (stored_apply x0 x1 x2 _ _ _ _ _ _ _ _ p).trans ?_
  unfold rowMax
  refine Eq.trans ?_ (sup_chunks _).symm
  refine congrArg₂ max (congrArg₂ max (congrArg₂ max (congrArg₂ max rfl ?_) ?_) ?_) ?_
  · exact chunk_sup x0 x1 x2 x3 x4 p 0 0 0 _ _ rfl rfl
  · exact chunk_sup x0 x1 x2 x3 x4 p 1 512 512 _ _ rfl rfl
  · exact chunk_sup x0 x1 x2 x3 x4 p 2 1024 1024 _ _ rfl rfl
  · exact chunk_sup x0 x1 x2 x3 x4 p 3 1536 1536 _ _ rfl rfl

end Cert.KernelIdeal.Row

end
-- ==== Proof.KernelEntry.lean ====
/-
  What the kernel's region finds in the arrays the host wrote before it.

  Before the call the host narrows the two weight matrices to bf16 — the identity on extended reals — and reshapes the two
  bias vectors to one row each, [n] to [1, n], which moves entry `j` to (0, j). So, read at an index, each of the four
  arrays the region is launched on beside the input is the corresponding argument array.
-/
import proofs.«163617_j58918361366879_2_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The first weight matrix as the region finds it: the argument, narrowed. -/
theorem V_w1 (c : Dev nD) :
    (V m c main_v0 : S1024x512.Idx → EReal)
      = truncf (F := Ideal) .bf16 (m ((c : Thread nD τ).loc main_arg1)) bitsLt_bf16_f32 := by
  dsimp only [V, hostOps0]; after_results

/-- The second weight matrix as the region finds it: the argument, narrowed. -/
theorem V_w2 (c : Dev nD) :
    (V m c main_v1 : S2048x1024.Idx → EReal)
      = truncf (F := Ideal) .bf16 (m ((c : Thread nD τ).loc main_arg3)) bitsLt_bf16_f32 := by
  dsimp only [V, hostOps0]; after_results

/-- The first bias as the region finds it: the argument as one row. -/
theorem V_b1 (c : Dev nD) :
    (V m c main_v2 : S1x1024.Idx → EReal)
      = shapeCast S1x1024 (m ((c : Thread nD τ).loc main_arg2)) shapeCasts_S1024_S1x1024 := by
  dsimp only [V, hostOps0]; after_results; rfl

/-- The second bias as the region finds it: the argument as one row. -/
theorem V_b2 (c : Dev nD) :
    (V m c main_v3 : S1x2048.Idx → EReal)
      = shapeCast S1x2048 (m ((c : Thread nD τ).loc main_arg4)) shapeCasts_S2048_S1x2048 := by
  dsimp only [V, hostOps0]; after_results; rfl

end Cert.KernelIdeal.Entry

end
-- ==== Proof.KernelArray.lean ====
/-
  From the kernel's blocks to its result array.

  Grid point `t` of 16 works on rows 2048t … 2048t + 2047 of the input and writes back the same rows of the result; the two
  weight matrices and the two biases are the same whole arrays at every point. So what point `t` writes back is block `t` of
  ONE function of the argument arrays, `Cert.RowMax.result`; the 16 blocks cover the result array; hence the array ends
  holding that function.
-/
import proofs.«163617_j58918361366879_2_alg».proof.Proof.Gen.KernelIdeal.Value
import proofs.«163617_j58918361366879_2_alg».proof.Proof.KernelBlock
import proofs.«163617_j58918361366879_2_alg».proof.Proof.KernelEntry

noncomputable section

namespace Cert.KernelIdeal.Arr

open Cert.KernelIdeal Cert.KernelIdeal.Gen Cert.KernelIdeal.Row Cert.KernelIdeal.Entry
open Idealize.ShloMosaic Idealize.ShloMosaic.TcCoe Idealize.ShloMosaic.ValueIdx Idealize.SL.Sem Cert.RowMax
open Idealize.ShloMosaic.Pipeline (Dat)

variable (m : (ℓ : Loc nD τ sig) → Buf (Elt Ideal) ℓ) (ρ : Dev nD → PrngReg)

/-! ## One block against the arrays -/

/-- A block's output at local row `y` is the result at array row `i`, when the input block's rows are the array's rows from
    `base` on, `i` is `base + y`, and the four other blocks are the whole arrays (the biases as one row each). -/
theorem block_row (X0 : Vec Ideal S2048x512 .f32) (X1 : Vec Ideal S1024x512 .bf16) (X2 : Vec Ideal S1x1024 .f32)
    (X3 : Vec Ideal S2048x1024 .bf16) (X4 : Vec Ideal S1x2048 .f32)
    (A0 : S32768x512.Idx → EReal) (A1 : S1024x512.Idx → EReal) (A2 : S1024.Idx → EReal) (A3 : S2048x1024.Idx → EReal)
    (A4 : S2048.Idx → EReal) (base : Nat) (y : S2048.Idx) (i : S32768.Idx) (hi : (i 0).val = base + (y 0).val)
    (h0 : ∀ (p : Fin 2048) (k : Fin 512) (r : Fin 32768), r.val = base + p.val → X0 (ix2 p k) = A0 (ix2 r k))
    (h1 : ∀ (j : Fin 1024) (k : Fin 512), X1 (ix2 j k) = A1 (ix2 j k))
    (h2 : ∀ j : Fin 1024, X2 (ix2 (0 : Fin 1) j) = A2 (ix1 j))
    (h3 : ∀ (o : Fin 2048) (j : Fin 1024), X3 (ix2 o j) = A3 (ix2 o j))
    (h4 : ∀ o : Fin 2048, X4 (ix2 (0 : Fin 1) o) = A4 (ix1 o)) :
    out0_5 X0 X1 X2 X3 X4 y = result A0 A1 A2 A3 A4 i := by
  obtain ⟨p, rfl⟩ : ∃ p : Fin 2048, y = ix1 p := ⟨y 0, eq_ix1 y⟩
  obtain ⟨r, rfl⟩ : ∃ r : Fin 32768, i = ix1 r := ⟨i 0, eq_ix1 i⟩
  refine (out_row X0 X1 X2 X3 X4 p).trans ?_
  have e0 : (fun k => X0 (ix2 p k)) = fun k => A0 (ix2 r k) := funext fun k => h0 p k r hi
  have e1 : (fun j k => X1 (ix2 j k)) = fun j k => A1 (ix2 j k) := funext fun j => funext fun k => h1 j k
  have e2 : (fun j => X2 (ix2 (0 : Fin 1) j)) = fun j => A2 (ix1 j) := funext h2
  have e3 : (fun o j => X3 (ix2 o j)) = fun o j => A3 (ix2 o j) := funext fun o => funext fun j => h3 o j
  have e4 : (fun o => X4 (ix2 (0 : Fin 1) o)) = fun o => A4 (ix1 o) := funext h4
  rw [e0, e1, e2, e3, e4]
  rfl

/-! ## The index maps, decided over the 16 grid points -/

/-- The input's and the result's block index is the grid point; the other four windows stay at block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val :=
  (by decide +kernel : ∀ t : Fin grid0.N, _)

/-! ## The input blocks, read where the arrays hold them -/

/-- The input block at point `t`: rows 2048t … of the input array. -/
theorem iblk0_apply (c : Dev nD) (t : Fin cfg0.N) (p : Fin 2048) (k : Fin 512) (r : Fin 32768) (hr : r.val = 2048 * t.val + p.val) :
    (iblk m c 0 t : Vec Ideal S2048x512 .f32) (ix2 p k) = m ((c : Thread nD τ).loc main_arg0) (ix2 r k) := by
  obtain ⟨e, e', -⟩ := block_indices t
  unfold iblk
  rw [View.read_apply]
  show V m c main_arg0 (((cfg0.win 0).blk t).view.emb (ix2 p k)) = _
  refine (congrFun (V_main_arg0 m c) _).trans (congrArg _ (funext fun a => Fin.ext ?_))
  match a with
  | ⟨0, _⟩ => show win0_0.index t (0 : Fin 2) * 2048 + 1 * p.val = r.val; omega
  | ⟨1, _⟩ => show win0_0.index t (1 : Fin 2) * 512 + 1 * k.val = k.val; omega

/-- The first weight matrix's block at any point: the whole argument. -/
theorem iblk1_apply (c : Dev nD) (t : Fin cfg0.N) (j : Fin 1024) (k : Fin 512) :
    (iblk m c 1 t : Vec Ideal S1024x512 .bf16) (ix2 j k) = m ((c : Thread nD τ).loc main_arg1) (ix2 j k) := by
  obtain ⟨-, -, e, e', -⟩ := block_indices t
  unfold iblk
  rw [View.read_apply]
  show V m c main_v0 (((cfg0.win 1).blk t).view.emb (ix2 j k)) = _
  refine (congrFun (V_w1 m c) _).trans ?_
  show m ((c : Thread nD τ).loc main_arg1) (((cfg0.win 1).blk t).view.emb (ix2 j k)) = _
  refine congrArg _ (funext fun a => Fin.ext ?_)
  match a with
  | ⟨0, _⟩ => show win0_1.index t (0 : Fin 2) * 1024 + 1 * j.val = j.val; omega
  | ⟨1, _⟩ => show win0_1.index t (1 : Fin 2) * 512 + 1 * k.val = k.val; omega

/-- The first bias's block at any point: the whole argument, as one row. -/
theorem iblk2_apply (c : Dev nD) (t : Fin cfg0.N) (j : Fin 1024) :
    (iblk m c 2 t : Vec Ideal S1x1024 .f32) (ix2 (0 : Fin 1) j) = m ((c : Thread nD τ).loc main_arg2) (ix1 j) := by
  obtain ⟨-, -, -, -, e, e', -⟩ := block_indices t
  unfold iblk
  rw [View.read_apply]
  show V m c main_v2 (((cfg0.win 2).blk t).view.emb (ix2 (0 : Fin 1) j)) = _
  refine (congrFun (V_b1 m c) _).trans ?_
  refine shapeCast_apply _ _ _ (ix1 j) ?_
  rw [Shape.rowMajor_val_one, Shape.rowMajor_val_two]
  show j.val = (win0_2.index t (0 : Fin 2) * 1 + 1 * 0) * 1024 + (win0_2.index t (1 : Fin 2) * 1024 + 1 * j.val)
  omega

/-- The second weight matrix's block at any point: the whole argument. -/
theorem iblk3_apply (c : Dev nD) (t : Fin cfg0.N) (o : Fin 2048) (j : Fin 1024) :
    (iblk m c 3 t : Vec Ideal S2048x1024 .bf16) (ix2 o j) = m ((c : Thread nD τ).loc main_arg3) (ix2 o j) := by
  obtain ⟨-, -, -, -, -, -, e, e', -⟩ := block_indices t
  unfold iblk
  rw [View.read_apply]
  show V m c main_v1 (((cfg0.win 3).blk t).view.emb (ix2 o j)) = _
  refine (congrFun (V_w2 m c) _).trans ?_
  show m ((c : Thread nD τ).loc main_arg3) (((cfg0.win 3).blk t).view.emb (ix2 o j)) = _
  refine congrArg _ (funext fun a => Fin.ext ?_)
  match a with
  | ⟨0, _⟩ => show win0_3.index t (0 : Fin 2) * 2048 + 1 * o.val = o.val; omega
  | ⟨1, _⟩ => show win0_3.index t (1 : Fin 2) * 1024 + 1 * j.val = j.val; omega

/-- The second bias's block at any point: the whole argument, as one row. -/
theorem iblk4_apply (c : Dev nD) (t : Fin cfg0.N) (o : Fin 2048) :
    (iblk m c 4 t : Vec Ideal S1x2048 .f32) (ix2 (0 : Fin 1) o) = m ((c : Thread nD τ).loc main_arg4) (ix1 o) := by
  obtain ⟨-, -, -, -, -, -, -, -, e, e', -⟩ := block_indices t
  unfold iblk
  rw [View.read_apply]
  show V m c main_v3 (((cfg0.win 4).blk t).view.emb (ix2 (0 : Fin 1) o)) = _
  refine (congrFun (V_b2 m c) _).trans ?_
  refine shapeCast_apply _ _ _ (ix1 o) ?_
  rw [Shape.rowMajor_val_one, Shape.rowMajor_val_two]
  show o.val = (win0_4.index t (0 : Fin 2) * 1 + 1 * 0) * 2048 + (win0_4.index t (1 : Fin 2) * 2048 + 1 * o.val)
  omega

/-! ## What each point writes back, the cover of the rows, the array -/

/-- The result as a function of the argument arrays as launched. -/
abbrev resultOf (c : Dev nD) : S32768.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the result. -/
theorem written_back_rows (c : Dev nD) (t : Fin cfg0.N) :
    (dats m 0 c).flushed 5 t = ((cfg0.win 5).blk t).view.read (Elt Ideal) (resultOf m c) := by
  rw [Value.flushed5]
  funext y
  show out0_5 (iblk m c 0 t) (iblk m c 1 t) (iblk m c 2 t) (iblk m c 3 t) (iblk m c 4 t) y
      = resultOf m c (((cfg0.win 5).blk t).view.emb y)
  refine block_row _ _ _ _ _ _ _ _ _ _ (2048 * t.val) y _ ?_ (fun p k r hr => iblk0_apply m c t p k r hr)
    (fun j k => iblk1_apply m c t j k) (fun j => iblk2_apply m c t j) (fun o j => iblk3_apply m c t o j)
    (fun o => iblk4_apply m c t o)
  have e := (block_indices t).2.2.2.2.2.2.2.2.2.2
  show win0_5.index t (0 : Fin 1) * 2048 + 1 * (y 0).val = 2048 * t.val + (y 0).val
  omega

/-- An index of the result array is in point `t`'s block iff its row is among the block's 2048. -/
theorem mem_rows_block (t : Fin cfg0.N) (i : S32768.Idx) :
    i ∈ ((cfg0.win 5).blk t).view.set
      ↔ ∀ a : Fin 1, win0_5.index t a * S2048.size a ≤ (i a).val ∧ (i a).val < win0_5.index t a * S2048.size a + S2048.size a := by
  show i ∈ ((View.whole main_v4).slice (win0_5.rect t)).set ↔ _
  rw [View.set_slice_whole, Rect.mem_set_unit]
  exact Iff.rfl

/-- Every row of the result is in the block of the point that is its number divided by 2048. -/
theorem rows_covered (i : S32768.Idx) : ∃ t : Fin cfg0.N, (cfg0.win 5).flush t = true ∧ i ∈ ((cfg0.win 5).blk t).view.set := by
  have hi : (i 0).val < 32768 := (i 0).isLt
  have hN : cfg0.N = 16 := N_0
  refine ⟨⟨(i 0).val / 2048, by rw [hN]; omega⟩, flush0_5 _, ?_⟩
  rw [mem_rows_block]
  intro a
  have e := (block_indices ⟨(i 0).val / 2048, by rw [hN]; omega⟩).2.2.2.2.2.2.2.2.2.2
  match a with
  | ⟨0, _⟩ =>
    show win0_5.index ⟨(i 0).val / 2048, _⟩ (0 : Fin 1) * 2048 ≤ (i 0).val
      ∧ (i 0).val < win0_5.index ⟨(i 0).val / 2048, _⟩ (0 : Fin 1) * 2048 + 2048
    rw [e]
    show (i 0).val / 2048 * 2048 ≤ (i 0).val ∧ (i 0).val < (i 0).val / 2048 * 2048 + 2048
    omega

/-- THE RESULT ARRAY after the run is the result function of the argument arrays. -/
theorem result_array (c : Dev nD) : (dats m 0 c).arrAt 5 cfg0.N = resultOf m c :=
  (dats m 0 c).arrAt_eq_of_cover 5 (resultOf m c) (fun t _ => written_back_rows m c t) rows_covered

/-- The kernel's run, read: the result array at the result function, the arguments unchanged. -/
theorem kernel_run : θ_run defs (onTc (τ := τ) (main (F := Ideal))) ⟨m, fun _ => 0, ρ⟩ fun r => ∀ c : Dev nD,
      r.2.mem ((c : Thread nD τ).loc main_v4) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩) (Value.run_blocks m ρ)

end Cert.KernelIdeal.Arr

end
-- ==== Proof.RefValue.lean ====
/-
  The reference's result, read index by index.

  The reference multiplies the whole input by the first weight matrix and adds the first bias (broadcast over the rows),
  multiplies the hidden array by the second weight matrix and adds the second bias, and reduces each row of 2048 scores with
  `maximum` from −∞. Each stage read at an index is the matching step of `Cert.RowMax`; the last one, a fold of `max` from the
  least element over the 2048 positions of the row, is the row's supremum.
-/
import proofs.«163617_j58918361366879_2_alg».proof.Proof.Gen.ReferenceIdeal.Read
import proofs.«163617_j58918361366879_2_alg».proof.Proof.MaxChunks
import proofs.«163617_j58918361366879_2_alg».proof.Proof.Spec
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.RowMax

variable (x0 : (⟨S32768x512, .f32⟩ : BufTy).Contents (Elt Ideal)) (x1 : (⟨S1024x512, .f32⟩ : BufTy).Contents (Elt Ideal))
  (x2 : (⟨S1024, .f32⟩ : BufTy).Contents (Elt Ideal)) (x3 : (⟨S2048x1024, .f32⟩ : BufTy).Contents (Elt Ideal))
  (x4 : (⟨S2048, .f32⟩ : BufTy).Contents (Elt Ideal))

/-- The hidden array at (r, j): hidden value `j` of row `r`. -/
theorem hidden_apply (r : Fin 32768) (j : Fin 1024) :
    val_main_v3 (F := Ideal) x0 x1 x2 (ix2 r j)
      = hiddenAt (fun k => x0 (ix2 r k)) (fun j k => x1 (ix2 j k)) (fun j => x2 (ix1 j)) j := by
  have el : ∀ k : Fin 512, lidx_main_v0 (ix2 r j) k = ix2 r k := fun k => funext fun a => Fin.ext (by
    match a with | ⟨0, _⟩ => rfl | ⟨1, _⟩ => rfl)
  have er : ∀ k : Fin 512, ridx_main_v0 (ix2 r j) k = ix2 j k := fun k => funext fun a => Fin.ext (by
    match a with | ⟨0, _⟩ => rfl | ⟨1, _⟩ => rfl)
  have eb : idx_main_v1 (idx_main_v2 (ix2 r j)) = ix1 j := funext fun a => Fin.ext (by
    match a with | ⟨0, _⟩ => rfl)
  rw [val_main_v3_apply, val_main_v0_apply, val_main_v2_apply, val_main_v1_apply, eb]
  unfold hiddenAt
  simp only [el, er, Ideal.addf_def]

/-- The score array at (r, o): score `o` of row `r`. -/
theorem score_apply (r : Fin 32768) (o : Fin 2048) :
    val_main_v7 (F := Ideal) x0 x1 x2 x3 x4 (ix2 r o)
      = scoreAt (fun k => x0 (ix2 r k)) (fun j k => x1 (ix2 j k)) (fun j => x2 (ix1 j)) (fun o j => x3 (ix2 o j))
          (fun o => x4 (ix1 o)) o := by
  have el : ∀ k : Fin 1024, lidx_main_v4 (ix2 r o) k = ix2 r k := fun k => funext fun a => Fin.ext (by
    match a with | ⟨0, _⟩ => rfl | ⟨1, _⟩ => rfl)
  have er : ∀ k : Fin 1024, ridx_main_v4 (ix2 r o) k = ix2 o k := fun k => funext fun a => Fin.ext (by
    match a with | ⟨0, _⟩ => rfl | ⟨1, _⟩ => rfl)
  have eb : idx_main_v5 (idx_main_v6 (ix2 r o)) = ix1 o := funext fun a => Fin.ext (by
    match a with | ⟨0, _⟩ => rfl)
  rw [val_main_v7_apply, val_main_v4_apply, val_main_v6_apply, val_main_v5_apply, eb]
  unfold scoreAt
  simp only [el, er, hidden_apply, Ideal.addf_def]

/-- A row index `r` of the result with the coordinate `o` put back on the reduced axis is (r, o). -/
theorem lift_row (h : S32768x2048.Reduces [1] S32768) (r : Fin 32768) (o : Fin 2048) : h.lift (ix1 r) o = ix2 r o :=
  funext fun c => Fin.ext (by match c with | ⟨0, _⟩ => rfl | ⟨1, _⟩ => rfl)

/-- THE REFERENCE'S RESULT is the result function of its arguments. -/
theorem result_eq : val_main_v8 (F := Ideal) x0 x1 x2 x3 x4 = result x0 x1 x2 x3 x4 := by
  have hred : S32768x2048.Reduces [1] S32768 := by decide
  funext i
  obtain ⟨r, rfl⟩ : ∃ r : Fin 32768, i = ix1 r := ⟨i 0, eq_ix1 i⟩
  unfold val_main_v8
  refine (Host.reduce_eq_fold_single FloatOps.maximumf _ _ reducesTo_S32768x2048_S32768_d1 hred h_S_ (ix1 r)).trans ?_
  show (Finset.univ : Finset (Fin 2048)).fold max (Ideal.ofBits .f32 0xFF800000#32) _ = _
  rw [negInf_eq_bot]
  show (Finset.univ : Finset (Fin 2048)).sup _ = _
  unfold result resultRow rowMax
  refine Finset.sup_congr rfl fun o _ => ?_
  exact (congrArg _ (lift_row hred r o)).trans (score_apply x0 x1 x2 x3 x4 r o)

end Cert.ReferenceIdeal.RefValue

end
-- ==== Proof.lean ====
/-
  The kernel against its reference, on the extended reals.

  Both programs take an input of 32768 rows of 512 numbers through two linear layers — 512 to 1024 with weights `l1_w` and bias
  `l1_b`, then 1024 to 2048 with weights `weight` and bias `bias` — and return, for each row, the largest of its 2048 scores.
  The reference does it with two whole matrix products and one `maximum` reduction from −∞ along each row. The kernel works on
  16 blocks of 2048 rows; it narrows the operands of its products to bf16, which on extended reals changes nothing, and takes
  each row's maximum in four chunks of 512 scores, folding the chunk maxima into a running maximum that starts at −∞. Since −∞
  is the least extended real, a `max`-fold from it is a supremum, and the supremum over 2048 positions is the join of the
  suprema over the four chunks: both programs end with `Cert.RowMax.result` of their arguments. No law that needs finite
  values is used: sums and products appear in the same arrangement on both sides.

  The three frames come from the generated modules (the kernel's frame certificates; the reference's run with its result
  dropped); the ideal pass rewrote nothing, so the idealization claim is `True`.
-/
import proofs.«163617_j58918361366879_2_alg».proof.Defs
import proofs.«163617_j58918361366879_2_alg».proof.Proof.Gen.Kernel
import proofs.«163617_j58918361366879_2_alg».proof.Proof.Gen.Kernel.Skeleton
import proofs.«163617_j58918361366879_2_alg».proof.Proof.Gen.Kernel.Launch
import proofs.«163617_j58918361366879_2_alg».proof.Proof.Gen.Kernel.Points
import proofs.«163617_j58918361366879_2_alg».proof.Proof.Gen.Kernel.Frame
import proofs.«163617_j58918361366879_2_alg».proof.Proof.Gen.KernelIdeal
import proofs.«163617_j58918361366879_2_alg».proof.Proof.Gen.KernelIdeal.Skeleton
import proofs.«163617_j58918361366879_2_alg».proof.Proof.Gen.KernelIdeal.Launch
import proofs.«163617_j58918361366879_2_alg».proof.Proof.Gen.KernelIdeal.Points
import proofs.«163617_j58918361366879_2_alg».proof.Proof.Gen.KernelIdeal.Frame
import proofs.«163617_j58918361366879_2_alg».proof.Proof.Gen.ReferenceIdeal
import proofs.«163617_j58918361366879_2_alg».proof.Proof.Gen.Pre_finite_inputs
import proofs.«163617_j58918361366879_2_alg».proof.Proof.Gen.KernelIdeal.Value
import proofs.«163617_j58918361366879_2_alg».proof.Proof.Gen.ReferenceIdeal.Run
import proofs.«163617_j58918361366879_2_alg».proof.Proof.Gen.ReferenceIdeal.Read
import proofs.«163617_j58918361366879_2_alg».proof.Proof.KernelArray
import proofs.«163617_j58918361366879_2_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories that agree on the arguments both programs end with each row's largest score: the kernel's result array
    is `Cert.RowMax.result` of its arguments, the reference's result term is the same function of its own, and the
    arguments agree. -/
theorem algebraic : Cert.algebraic_KernelIdeal_ReferenceIdeal := by
  intro m ρ m' ρ' _ hagree
  refine ⟨fun c => Cert.KernelIdeal.Arr.resultOf m c, Cert.KernelIdeal.Arr.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
